-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x256 : Shape := ⟨2, ![1024, 256]⟩
abbrev S_ : Shape := ⟨0, ![]⟩

class Facts : Prop where
  bcast_S_S1024x256 : S_.BroadcastsInDim S1024x256 (![] : Fin 0 → Fin S1024x256.rank)
  reducesTo_S1024x256_S_d0_1 : S1024x256.ReducesTo [0, 1] S_
  h_S_ : 0 < S_.numel

variable [Facts]

def fn {F : FTy → Type} [FloatOps F] (main_arg0 : FVec F S1024x256 .f32) (main_arg1 : FVec F S1024x256 .f32) : IVec S_ 1 :=
  let main_v0 : FVec F S1024x256 .f32 := Host.absf main_arg0
  let main_cst : FVec F S_ .f32 := constant S_ .f32 0x7F800000#32
  let main_v1 : FVec F S1024x256 .f32 := broadcastInDim S1024x256 ![] bcast_S_S1024x256 main_cst
  let main_v2 : IVec S1024x256 1 := cmpf .olt main_v0 main_v1
  let main_c : IVec S_ 1 := constantI S_ 1 1#1
  let main_v3 : IVec S_ 1 := (fun x v => Host.reduce IntOp.andi x v reducesTo_S1024x256_S_d0_1 h_S_) main_v2 main_c
  let main_v4 : FVec F S1024x256 .f32 := Host.absf main_arg1
  let main_cst_0 : FVec F S_ .f32 := constant S_ .f32 0x7F800000#32
  let main_v5 : FVec F S1024x256 .f32 := broadcastInDim S1024x256 ![] bcast_S_S1024x256 main_cst_0
  let main_v6 : IVec S1024x256 1 := cmpf .olt main_v4 main_v5
  let main_c_1 : IVec S_ 1 := constantI S_ 1 1#1
  let main_v7 : IVec S_ 1 := (fun x v => Host.reduce IntOp.andi x v reducesTo_S1024x256_S_d0_1 h_S_) main_v6 main_c_1
  let main_v8 : IVec S_ 1 := andi main_v3 main_v7
  main_v8
-- ==== Kernel.lean ====
abbrev S1024x256 : Shape := ⟨2, ![1024, 256]⟩
abbrev S1024x1024 : Shape := ⟨2, ![1024, 1024]⟩
abbrev S128x256 : Shape := ⟨2, ![128, 256]⟩
abbrev S128x128 : Shape := ⟨2, ![128, 128]⟩
abbrev S128x1x128 : Shape := ⟨3, ![128, 1, 128]⟩
abbrev S1x128x128 : Shape := ⟨3, ![1, 128, 128]⟩
abbrev S128x128x128 : Shape := ⟨3, ![128, 128, 128]⟩
abbrev S1x1 : Shape := ⟨2, ![1, 1]⟩
abbrev S1024 : Shape := ⟨1, ![1024]⟩
abbrev S1024x1 : Shape := ⟨2, ![1024, 1]⟩
abbrev S1x1024 : Shape := ⟨2, ![1, 1024]⟩
abbrev S1 : Shape := ⟨1, ![1]⟩
abbrev S_ : Shape := ⟨0, ![]⟩

abbrev nBuf : Space → Nat
  | .hbm => 5
  | .vmem => 8
  | .smem => 0
  | _ => 0

abbrev bufTy : (tb : Table) → Fin (tcTables nBuf tb) → BufTy
  | .hbm, ⟨0, _⟩ => ⟨S1024x256, .f32⟩
  | .hbm, ⟨1, _⟩ => ⟨S1024x256, .f32⟩
  | .hbm, ⟨2, _⟩ => ⟨S1024x1024, .f32⟩
  | .hbm, ⟨3, _⟩ => ⟨S1x1, .f32⟩
  | .hbm, ⟨4, _⟩ => ⟨S_, .f32⟩
  | .local _ .vmem, ⟨0, _⟩ => ⟨S128x256, .f32⟩
  | .local _ .vmem, ⟨1, _⟩ => ⟨S128x256, .f32⟩
  | .local _ .vmem, ⟨2, _⟩ => ⟨S128x256, .f32⟩
  | .local _ .vmem, ⟨3, _⟩ => ⟨S128x256, .f32⟩
  | .local _ .vmem, ⟨4, _⟩ => ⟨S128x128, .f32⟩
  | .local _ .vmem, ⟨5, _⟩ => ⟨S128x128, .f32⟩
  | .local _ .vmem, ⟨6, _⟩ => ⟨S1024x1024, .f32⟩
  | .local _ .vmem, ⟨7, _⟩ => ⟨S1x1, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg1_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem1_0 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S1024x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

class Facts₀ : Prop where
  inb_S128x256_S128x128_0_0 : ∀ a, (![0, 0] : Fin 2 → Nat) a + S128x128.size a ≤ S128x256.size a
  h_S128x128 : 0 < S128x128.numel
  shapeCasts_S128x128_S128x1x128 : S128x128.ShapeCasts S128x1x128
  shapeCasts_S128x128_S1x128x128 : S128x128.ShapeCasts S1x128x128
  broadcasts_S128x1x128_S128x128x128 : S128x1x128.Broadcasts S128x128x128
  broadcasts_S1x128x128_S128x128x128 : S1x128x128.Broadcasts S128x128x128
  reduces_S128x128x128_S128x128 : S128x128x128.Reduces [2] S128x128
  inb_S128x256_S128x128_0_128 : ∀ a, (![0, 128] : Fin 2 → Nat) a + S128x128.size a ≤ S128x256.size a
  inb_S128x128_S128x128_0_0 : ∀ a, (![0, 0] : Fin 2 → Nat) a + S128x128.size a ≤ S128x128.size a
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  reduces_S1024x1024_S1024 : S1024x1024.Reduces [1] S1024
  shapeCasts_S1024_S1024x1 : S1024.ShapeCasts S1024x1
  broadcasts_S1024x1_S1024x1024 : S1024x1.Broadcasts S1024x1024
  reduces_S1024x1024_S1024_2 : S1024x1024.Reduces [0] S1024
  shapeCasts_S1024_S1x1024 : S1024.ShapeCasts S1x1024
  broadcasts_S1x1024_S1024x1024 : S1x1024.Broadcasts S1024x1024
  reduces_S1024x1_S1 : S1024x1.Reduces [0] S1
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x256.size a ≤ S1024x256.size a
  hwx0_0 : ∀ i : grid0.Coords, EltTy.bits .f32 = 32 ∨ (Rect.block (s := S1024x256) S128x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S1024x256.size a
  hwx0_1 : ∀ i : grid0.Coords, EltTy.bits .f32 = 32 ∨ (Rect.block (s := S1024x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S1024x1024.size a
  hwx0_2 : ∀ i : grid0.Coords, EltTy.bits .f32 = 32 ∨ (Rect.block (s := S1024x1024) S128x128.size (cc0_transform_2 i) (hinb0_2 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S1024x1024.size a
  hwx1_0 : ∀ i : grid1.Coords, EltTy.bits .f32 = 32 ∨ (Rect.block (s := S1024x1024) S1024x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x1.size a ≤ S1x1.size a
  hwx1_1 : ∀ i : grid1.Coords, EltTy.bits .f32 = 32 ∨ (Rect.block (s := S1x1) S1x1.size (cc1_transform_1 i) (hinb1_1 i)).WholeWords (EltTy.packing .f32)

variable [Facts₀]

abbrev win0_0 : Pipeline.Window sig grid0 :=
  Pipeline.Window.ofSpec (Memref.whole main_arg0) S128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S1024x1024.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1x1.size cc1_transform_1 reads1_1 true true 1 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S1024x256 : Shape := ⟨2, ![1024, 256]⟩
abbrev S1024x1x256 : Shape := ⟨3, ![1024, 1, 256]⟩
abbrev S1x1024x256 : Shape := ⟨3, ![1, 1024, 256]⟩
abbrev S1024x1024x256 : Shape := ⟨3, ![1024, 1024, 256]⟩
abbrev S_ : Shape := ⟨0, ![]⟩
abbrev S1024x1024 : Shape := ⟨2, ![1024, 1024]⟩
abbrev S1024 : Shape := ⟨1, ![1024]⟩
abbrev S1024x1 : Shape := ⟨2, ![1024, 1]⟩
abbrev S1x1024 : Shape := ⟨2, ![1, 1024]⟩

abbrev nBuf : Space → Nat
  | .hbm => 48
  | .vmem => 0
  | .smem => 0
  | _ => 0

abbrev bufTy : (tb : Table) → Fin (tcTables nBuf tb) → BufTy
  | .hbm, ⟨0, _⟩ => ⟨S1024x256, .f32⟩
  | .hbm, ⟨1, _⟩ => ⟨S1024x256, .f32⟩
  | .hbm, ⟨2, _⟩ => ⟨S1024x1x256, .f32⟩
  | .hbm, ⟨3, _⟩ => ⟨S1x1024x256, .f32⟩
  | .hbm, ⟨4, _⟩ => ⟨S1024x1024x256, .f32⟩
  | .hbm, ⟨5, _⟩ => ⟨S1024x1024x256, .f32⟩
  | .hbm, ⟨6, _⟩ => ⟨S1024x1024x256, .f32⟩
  | .hbm, ⟨7, _⟩ => ⟨S1024x1024x256, .f32⟩
  | .hbm, ⟨8, _⟩ => ⟨S_, .f32⟩
  | .hbm, ⟨9, _⟩ => ⟨S1024x1024, .f32⟩
  | .hbm, ⟨10, _⟩ => ⟨S1024x1024, .f32⟩
  | .hbm, ⟨11, _⟩ => ⟨S_, .f32⟩
  | .hbm, ⟨12, _⟩ => ⟨S1024, .f32⟩
  | .hbm, ⟨13, _⟩ => ⟨S_, .f32⟩
  | .hbm, ⟨14, _⟩ => ⟨S1024, .f32⟩
  | .hbm, ⟨15, _⟩ => ⟨S1024, .f32⟩
  | .hbm, ⟨16, _⟩ => ⟨S1024x1, .f32⟩
  | .hbm, ⟨17, _⟩ => ⟨S1024x1024, .f32⟩
  | .hbm, ⟨18, _⟩ => ⟨S1024x1024, .f32⟩
  | .hbm, ⟨19, _⟩ => ⟨S1024x1024, .f32⟩
  | .hbm, ⟨20, _⟩ => ⟨S_, .f32⟩
  | .hbm, ⟨21, _⟩ => ⟨S1024, .f32⟩
  | .hbm, ⟨22, _⟩ => ⟨S1024x1, .f32⟩
  | .hbm, ⟨23, _⟩ => ⟨S1024x1024, .f32⟩
  | .hbm, ⟨24, _⟩ => ⟨S1024x1024, .f32⟩
  | .hbm, ⟨25, _⟩ => ⟨S_, .f32⟩
  | .hbm, ⟨26, _⟩ => ⟨S1024, .f32⟩
  | .hbm, ⟨27, _⟩ => ⟨S_, .f32⟩
  | .hbm, ⟨28, _⟩ => ⟨S1024, .f32⟩
  | .hbm, ⟨29, _⟩ => ⟨S1024, .f32⟩
  | .hbm, ⟨30, _⟩ => ⟨S1x1024, .f32⟩
  | .hbm, ⟨31, _⟩ => ⟨S1024x1024, .f32⟩
  | .hbm, ⟨32, _⟩ => ⟨S1024x1024, .f32⟩
  | .hbm, ⟨33, _⟩ => ⟨S1024x1024, .f32⟩
  | .hbm, ⟨34, _⟩ => ⟨S_, .f32⟩
  | .hbm, ⟨35, _⟩ => ⟨S1024, .f32⟩
  | .hbm, ⟨36, _⟩ => ⟨S1x1024, .f32⟩
  | .hbm, ⟨37, _⟩ => ⟨S1024x1024, .f32⟩
  | .hbm, ⟨38, _⟩ => ⟨S1024x1024, .f32⟩
  | .hbm, ⟨39, _⟩ => ⟨S1024x1024, .f32⟩
  | .hbm, ⟨40, _⟩ => ⟨S1024x1024, .f32⟩
  | .hbm, ⟨41, _⟩ => ⟨S1024x1024, .f32⟩
  | .hbm, ⟨42, _⟩ => ⟨S1024x1024, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_cst_4 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_5 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_6 : Ref sig .tc := ⟨.hbm, 43, rfl⟩
abbrev main_v34 : Ref sig .tc := ⟨.hbm, 44, rfl⟩
abbrev main_cst_7 : Ref sig .tc := ⟨.hbm, 45, rfl⟩
abbrev main_v35 : Ref sig .tc := ⟨.hbm, 46, rfl⟩
abbrev main_v36 : Ref sig .tc := ⟨.hbm, 47, rfl⟩

abbrev nD : Nat := 1
abbrev τ : Topo := Topo.v7x

variable {F : FTy → Type} [FloatOps F]

class Facts₀ : Prop where
  bcast_S1024x256_S1024x1x256_0_2 : S1024x256.BroadcastsInDim S1024x1x256 (![0, 2] : Fin 2 → Fin S1024x1x256.rank)
  bcast_S1024x256_S1x1024x256_1_2 : S1024x256.BroadcastsInDim S1x1024x256 (![1, 2] : Fin 2 → Fin S1x1024x256.rank)
  bcast_S1024x1x256_S1024x1024x256_0_1_2 : S1024x1x256.BroadcastsInDim S1024x1024x256 (![0, 1, 2] : Fin 3 → Fin S1024x1024x256.rank)
  bcast_S1x1024x256_S1024x1024x256_0_1_2 : S1x1024x256.BroadcastsInDim S1024x1024x256 (![0, 1, 2] : Fin 3 → Fin S1024x1024x256.rank)
  reducesTo_S1024x1024x256_S1024x1024_d2 : S1024x1024x256.ReducesTo [2] S1024x1024
  h_S_ : 0 < S_.numel
  reducesTo_S1024x1024_S1024_d1 : S1024x1024.ReducesTo [1] S1024
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x1024_0_1 : S1024x1.BroadcastsInDim S1024x1024 (![0, 1] : Fin 2 → Fin S1024x1024.rank)
  reducesTo_S1024x1024_S1024_d0 : S1024x1024.ReducesTo [0] S1024
  bcast_S1024_S1x1024_1 : S1024.BroadcastsInDim S1x1024 (![1] : Fin 1 → Fin S1x1024.rank)
  bcast_S1x1024_S1024x1024_0_1 : S1x1024.BroadcastsInDim S1024x1024 (![0, 1] : Fin 2 → Fin S1024x1024.rank)
  reducesTo_S1024x1024_S_d0_1 : S1024x1024.ReducesTo [0, 1] S_

variable [Facts₀]

class Facts : Prop extends Facts₀ where

variable [Facts]
-- ==== Proof.Align.lean ====
/-
  The function both programs compute, stated once over the extended reals.

  Two clouds of 1024 points in 256 dimensions, `x` and `y`. Their similarity matrix is the negated L1 distance,
      dist x y p q = -∑ d < 256, |x p d - y q d| ,
  where `|z|` is `max z (-z)`. From a similarity matrix `s` two soft assignments are formed, one normalising every row
  and one every column, each a softmax shifted by the maximum of its line:
      rowProb s p q = exp (s p q - rowMax s p) / ∑ k, exp (s p k - rowMax s p) ,
      colProb s p q = exp (s p q - colMax s q) / ∑ k, exp (s k q - colMax s q) .
  Their soft union is `weight = rowProb + colProb - rowProb · colProb`, and the result is the weighted mean of the
  similarities,
      wmean s = (∑ p, ∑ q, weight s p q · s p q) / (∑ p, ∑ q, weight s p q) .
  A line's maximum is the fold of `max` from the bottom element `⊥` (minus infinity), the quotient is the extended reals'
  total division `Ideal.div`, and `exp ⊥ = 0`. Nothing here needs the entries to be finite: every step is stated on the
  extended reals as the operations are, so the two programs are compared as written.
-/
import Idealize.ShloMosaic.PureOps.Ideal
import Idealize.ShloMosaic.Lib.ValueIdx

noncomputable section

namespace Cert.Align

open Idealize.ShloMosaic Idealize.ShloMosaic.ValueIdx

/-- A cloud of 1024 points in 256 dimensions. -/
abbrev Cloud : Type := (⟨2, ![1024, 256]⟩ : Shape).Idx → EReal
/-- A 1024 × 1024 matrix of similarities. -/
abbrev Sim : Type := (⟨2, ![1024, 1024]⟩ : Shape).Idx → EReal

/-- The negated L1 distance between point `p` of `x` and point `q` of `y`. -/
def dist (x y : Cloud) (p q : Fin 1024) : EReal :=
  -(∑ d : Fin 256, max (x (ix2 p d) - y (ix2 q d)) (-(x (ix2 p d) - y (ix2 q d))))

/-- The similarity matrix of two clouds, as an array. -/
def distArr (x y : Cloud) : Sim := fun i => dist x y ⟨(i 0).val, (i 0).isLt⟩ ⟨(i 1).val, (i 1).isLt⟩

theorem distArr_ix2 (x y : Cloud) (p q : Fin 1024) : distArr x y (ix2 p q) = dist x y p q := rfl

/-- The largest entry of row `p`. -/
def rowMax (s : Sim) (p : Fin 1024) : EReal := (Finset.univ : Finset (Fin 1024)).fold max ⊥ fun k => s (ix2 p k)
/-- The largest entry of column `q`. -/
def colMax (s : Sim) (q : Fin 1024) : EReal := (Finset.univ : Finset (Fin 1024)).fold max ⊥ fun k => s (ix2 k q)

/-- The numerator of the row softmax. -/
def rowExp (s : Sim) (p q : Fin 1024) : EReal := Ideal.exp (s (ix2 p q) - rowMax s p)
/-- The numerator of the column softmax. -/
def colExp (s : Sim) (p q : Fin 1024) : EReal := Ideal.exp (s (ix2 p q) - colMax s q)

/-- The softmax along row `p`. -/
def rowProb (s : Sim) (p q : Fin 1024) : EReal := Ideal.div (rowExp s p q) (∑ k : Fin 1024, rowExp s p k)
/-- The softmax along column `q`. -/
def colProb (s : Sim) (p q : Fin 1024) : EReal := Ideal.div (colExp s p q) (∑ k : Fin 1024, colExp s k q)

/-- The soft union of the two assignments. -/
def weight (s : Sim) (p q : Fin 1024) : EReal := rowProb s p q + colProb s p q - rowProb s p q * colProb s p q

/-- The weighted mean of the similarities. -/
def wmean (s : Sim) : EReal :=
  Ideal.div (∑ p : Fin 1024, ∑ q : Fin 1024, weight s p q * s (ix2 p q)) (∑ p : Fin 1024, ∑ q : Fin 1024, weight s p q)

/-- The word of minus infinity denotes the bottom of the extended reals. -/
theorem negInf_eq : Ideal.ofBits .f32 0xFF800000#32 = (⊥ : EReal) := by simp [Ideal.ofBits, Ideal.ieee]

/-- The zero word denotes zero. -/
theorem zero_eq : Ideal.ofBits .f32 0x00000000#32 = (0 : EReal) := by simp [Ideal.ofBits, Ideal.ieee]

end Cert.Align

end
-- ==== Proof.RefDist.lean ====
/-
  The reference's similarity matrix is the specification's.

  The reference spreads both clouds over a [1024, 1024, 256] array (the first along the middle axis, the second along the
  first), subtracts, takes absolute values, sums over the last axis from a zero initial value and negates. Read at
  `(p, q)` through the generated stage lemmas this is `-(0 + ∑ d < 256, |x p d - y q d|)`; the two composed index maps send
  `(p, q, d)` to `(p, d)` and `(q, d)`, and zero is neutral for the sum.
-/
import proofs.«104203_j78769700208930_1_alg».proof.Proof.Gen.ReferenceIdeal.Read
import proofs.«104203_j78769700208930_1_alg».proof.Proof.Align

noncomputable section

namespace Cert.ReferenceIdeal.RefDist

open Idealize.ShloMosaic Idealize.ShloMosaic.ValueIdx Cert.ReferenceIdeal Cert.ReferenceIdeal.Read Cert.Align

/-- Through the two spreads of the first cloud, `(p, q, d)` reads its entry `(p, d)`. -/
theorem idx_left (p q : Fin 1024) (d : Fin 256) : idx_main_v0 (idx_main_v2 (idx_main_v6 (ix2 p q) d)) = ix2 p d :=
  funext fun a => Fin.ext (by match a with | ⟨0, _⟩ => rfl | ⟨1, _⟩ => rfl)

/-- Through the two spreads of the second cloud, `(p, q, d)` reads its entry `(q, d)`. -/
theorem idx_right (p q : Fin 1024) (d : Fin 256) : idx_main_v1 (idx_main_v3 (idx_main_v6 (ix2 p q) d)) = ix2 q d :=
  funext fun a => Fin.ext (by match a with | ⟨0, _⟩ => rfl | ⟨1, _⟩ => rfl)

/-- The reference's negated sum of absolute differences is the similarity matrix of the two clouds. -/
theorem dist_eq (x0 x1 : (⟨S1024x256, .f32⟩ : BufTy).Contents (Elt Ideal)) :
    val_main_v7 (F := Ideal) x0 x1 = distArr x0 x1 := by
  funext i
  obtain ⟨p, q, rfl⟩ : ∃ (p q : Fin 1024), i = ix2 p q := ⟨i 0, i 1, eq_ix2 i⟩
  rw [distArr_ix2, val_main_v7_apply, val_main_v6_apply]
  simp only [val_main_v5_apply, val_main_v4_apply, val_main_v2_apply, val_main_v3_apply, val_main_v0_apply, val_main_v1_apply,
    val_main_cst_apply, idx_left, idx_right, Ideal.hostNegf_def, Ideal.negf_def, Ideal.hostAbsf_def, Ideal.absf_def,
    Ideal.subf_def, Ideal.ofBits_def, zero_eq, zero_add]
  rfl

end Cert.ReferenceIdeal.RefDist

end
-- ==== Proof.LibAxisFolds.lean ====
/-
  Sums and maxima along one axis, and the layouts of a pairwise difference, read at an index.

  A pairwise operation between the rows of two matrices is written by spreading each over a third axis: the [a, c] matrix
  viewed as [a, 1, c] and repeated along the middle axis, the [b, c] matrix viewed as [1, b, c] and repeated along the
  first, both [a, b, c]; a reduction over the last axis then leaves one number per pair. The lemmas here read each of
  those steps at an index given by coordinates, for every extent:
  • `shapeCast_ab_a1b_apply`: [a, c] viewed as [a, 1, c] reads, at `(p, u, k)`, the matrix at `(p, k)`;
  • `broadcastTo_a1c_abc_apply`: [a, 1, c] repeated to [a, b, c] reads, at `(p, q, k)`, the operand at `(p, 0, k)`;
  • `broadcastTo_1bc_abc_apply`: [1, b, c] repeated to [a, b, c] reads, at `(p, q, k)`, the operand at `(0, q, k)`;
  • `lastSum3_apply`: over the extended reals the sum of an [a, b, c] array along its last axis reads, at `(p, q)`,
    `∑ k < c` of the array at `(p, q, k)`.
  And for a matrix [a, b] reduced along either axis, over the extended reals:
  • `firstSum_apply`: the sum along the first axis reads, at `q`, `∑ k < a` of the matrix at `(k, q)`;
  • `lastMax_apply` / `firstMax_apply`: the maximum along the last (first) axis is the fold of `max`, from the value of
    the accumulator's word, over the entries of the row (column);
  • `hostLastMax_apply` / `hostFirstMax_apply`: the same for a host reduction with a maximum body, from its initial value.
-/
import Idealize.ShloMosaic.Lib.Pipeline.Value
import Idealize.ShloMosaic.Lib.ValueIdx
import Idealize.ShloMosaic.PureOps.Ideal.Laws

noncomputable section

namespace Cert.Lib.AxisFolds

open Idealize.ShloMosaic Idealize.ShloMosaic.ValueIdx

variable {α : Type}

/-- A matrix [a, c] viewed as [a, 1, c]: entry `(p, u, k)` is entry `(p, k)` of the matrix (the row-major positions
    `(p · 1 + 0) · c + k` and `p · c + k` agree). -/
theorem shapeCast_ab_a1b_apply {a c : ℕ} (x : (⟨2, ![a, c]⟩ : Shape).Idx → α)
    (h : (⟨2, ![a, c]⟩ : Shape).ShapeCasts ⟨3, ![a, 1, c]⟩) (p : Fin a) (u : Fin 1) (k : Fin c) :
    shapeCast ⟨3, ![a, 1, c]⟩ x h (ix3 p u k) = x (ix2 p k) :=
  shapeCast_apply x h _ _ (by
    have hu : u.val = 0 := by omega
    rw [Shape.rowMajor_val_three, Shape.rowMajor_val_two]
    show p.val * c + k.val = (p.val * 1 + u.val) * c + k.val
    rw [hu, Nat.mul_one, Nat.add_zero])

/-- [a, 1, c] repeated along its middle axis: entry `(p, q, k)` is the operand's entry `(p, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (k : Fin c) :
    broadcastTo ⟨3, ![a, b, c]⟩ v h (ix3 p q k) = v (ix3 p (0 : Fin 1) k) := by
  refine broadcastTo_apply v h (ix3 p q k) (ix3 p (0 : Fin 1) k) fun ax => ?_
  match ax with
  | ⟨0, _⟩ =>
    show p.val = if a = 1 then 0 else p.val
    split
    · have := p.isLt; omega
    · rfl
  | ⟨1, _⟩ => rfl
  | ⟨2, _⟩ =>
    show k.val = if c = 1 then 0 else k.val
    split
    · have := k.isLt; omega
    · rfl

/-- [1, b, c] repeated along its first axis: entry `(p, q, k)` is the operand's entry `(0, q, k)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (k : Fin c) :
    broadcastTo ⟨3, ![a, b, c]⟩ v h (ix3 p q k) = v (ix3 (0 : Fin 1) q k) := by
  refine broadcastTo_apply v h (ix3 p q k) (ix3 (0 : Fin 1) q k) fun ax => ?_
  match ax with
  | ⟨0, _⟩ => rfl
  | ⟨1, _⟩ =>
    show q.val = if b = 1 then 0 else q.val
    split
    · have := q.isLt; omega
    · rfl
  | ⟨2, _⟩ =>
    show k.val = if c = 1 then 0 else k.val
    split
    · have := k.isLt; omega
    · rfl

/-- Over the extended reals the sum of an [a, b, c] array along its last axis, read at `(p, q)`, is `∑ k < c` of the array
    at `(p, q, k)`. -/
theorem lastSum3_apply {a b c : ℕ} {φ : FTy} (v : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ v acc h hφ hacc (ix2 p q) = ∑ k : Fin c, v (ix3 p q k) :=
  (Ideal.multiReduction_add_single v acc h hφ hacc (ix2 p q)).trans
    (Finset.sum_congr rfl fun k _ => congrArg v (funext fun d => Fin.ext (by
      match d with
      | ⟨0, _⟩ => rfl
      | ⟨1, _⟩ => rfl
      | ⟨2, _⟩ => rfl)))

/-- Over the extended reals the sum of an [a, b] matrix along its first axis, read at column `q`, is `∑ k < a` of the
    matrix at `(k, q)`. -/
theorem firstSum_apply {a b : ℕ} {φ : FTy} (v : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (q : Fin b) :
    multiReduction .add [0] ⟨1, ![b]⟩ v acc h hφ hacc (ix1 q) = ∑ k : Fin a, v (ix2 k q) :=
  (Ideal.multiReduction_add_single v acc h hφ hacc (ix1 q)).trans
    (Finset.sum_congr rfl fun k _ => congrArg v (funext fun d => Fin.ext (by
      match d with
      | ⟨0, _⟩ => rfl
      | ⟨1, _⟩ => rfl)))

/-- Over the extended reals the maximum of an [a, b] matrix along its last axis, read at row `p`, is the fold of `max`,
    from the value of the accumulator's word, over the entries `(p, k)` of the row. -/
theorem lastMax_apply {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ v acc h hφ hacc (ix1 p)
      = (Finset.univ : Finset (Fin b)).fold max (Ideal.ofBits φ acc) fun k => v (ix2 p k) :=
  (Ideal.multiReduction_maximumf_single v acc h hφ hacc (ix1 p)).trans
    (congrArg (fun f => (Finset.univ : Finset (Fin b)).fold max (Ideal.ofBits φ acc) f) (funext fun k =>
      congrArg v (funext fun d => Fin.ext (by
        match d with
        | ⟨0, _⟩ => rfl
        | ⟨1, _⟩ => rfl))))

/-- The same along the first axis: at column `q`, the fold of `max` over the entries `(k, q)` of the column. -/
theorem firstMax_apply {a b : ℕ} {φ : FTy} (v : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ) (q : Fin b) :
    multiReduction .maximumf [0] ⟨1, ![b]⟩ v acc h hφ hacc (ix1 q)
      = (Finset.univ : Finset (Fin a)).fold max (Ideal.ofBits φ acc) fun k => v (ix2 k q) :=
  (Ideal.multiReduction_maximumf_single v acc h hφ hacc (ix1 q)).trans
    (congrArg (fun f => (Finset.univ : Finset (Fin a)).fold max (Ideal.ofBits φ acc) f) (funext fun k =>
      congrArg v (funext fun d => Fin.ext (by
        match d with
        | ⟨0, _⟩ => rfl
        | ⟨1, _⟩ => rfl))))

/-- A host reduction with a maximum body along the last axis of an [a, b] matrix, over the extended reals: at row `p` the
    fold of `max`, from the initial value, over the entries `(p, k)` of the row. -/
theorem hostLastMax_apply {a b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce (FloatOps.maximumf (F := Ideal) (φ := φ)) x init h' hu (ix1 p)
      = (Finset.univ : Finset (Fin b)).fold max (init (Shape.Idx.first hu)) fun k => x (ix2 p k) :=
  (Host.reduce_eq_fold_single (FloatOps.maximumf (F := Ideal) (φ := φ)) x init h' h hu (ix1 p)).trans
    (congrArg (fun f => (Finset.univ : Finset (Fin b)).fold max (init (Shape.Idx.first hu)) f) (funext fun k =>
      congrArg x (funext fun d => Fin.ext (by
        match d with
        | ⟨0, _⟩ => rfl
        | ⟨1, _⟩ => rfl))))

/-- The same along the first axis: at column `q`, the fold of `max`, from the initial value, over the column's entries. -/
theorem hostFirstMax_apply {a b : ℕ} {φ : FTy} {u : Shape} (x : FVec Ideal ⟨2, ![a, b]⟩ φ) (init : u.Idx → Ideal φ)
    (h' : (⟨2, ![a, b]⟩ : Shape).ReducesTo [0] ⟨1, ![b]⟩) (h : (⟨2, ![a, b]⟩ : Shape).Reduces [0] ⟨1, ![b]⟩)
    (hu : 0 < u.numel) (q : Fin b) :
    Host.reduce (FloatOps.maximumf (F := Ideal) (φ := φ)) x init h' hu (ix1 q)
      = (Finset.univ : Finset (Fin a)).fold max (init (Shape.Idx.first hu)) fun k => x (ix2 k q) :=
  (Host.reduce_eq_fold_single (FloatOps.maximumf (F := Ideal) (φ := φ)) x init h' h hu (ix1 q)).trans
    (congrArg (fun f => (Finset.univ : Finset (Fin a)).fold max (init (Shape.Idx.first hu)) f) (funext fun k =>
      congrArg x (funext fun d => Fin.ext (by
        match d with
        | ⟨0, _⟩ => rfl
        | ⟨1, _⟩ => rfl))))

end Cert.Lib.AxisFolds

end
-- ==== Proof.RefMean.lean ====
/-
  From its similarity matrix on, the reference computes the specification's weighted mean.

  Write `s` for the reference's similarity matrix (its stage `val_main_v7`), kept as one name throughout. The reference
  takes each row's maximum by a reduction from minus infinity (and once more the maximum with minus infinity, which changes
  nothing), sets it as a column and spreads it over the matrix, subtracts, exponentiates, sums each row from zero, spreads the
  sums the same way and divides: that is `rowProb s`. The same down the columns is `colProb s`. Their soft union is
  `weight s`, and the two grand totals are sums over every index of the matrix, from zero; a sum over all indices of a
  matrix is the double sum over rows and columns. Every step is read through the generated stage lemmas; what is added
  here is the composed index maps (an entry `(p, q)` reads the line value of row `p`, or of column `q`), the two
  maxima as folds, `max ⊥ a = a`, and `0 + a = a`.
-/
import proofs.«104203_j78769700208930_1_alg».proof.Proof.Gen.ReferenceIdeal.Read
import proofs.«104203_j78769700208930_1_alg».proof.Proof.Align
import proofs.«104203_j78769700208930_1_alg».proof.Proof.LibAxisFolds

noncomputable section

namespace Cert.ReferenceIdeal.RefMean

open Idealize.ShloMosaic Idealize.ShloMosaic.ValueIdx Cert.ReferenceIdeal Cert.ReferenceIdeal.Gen Cert.ReferenceIdeal.Read Cert.Align
open Cert.Lib.AxisFolds

variable (x0 x1 : (⟨S1024x256, .f32⟩ : BufTy).Contents (Elt Ideal))

/-! ## The composed index maps -/

theorem idx_rowOf (p q : Fin 1024) : idx_main_v11 (idx_main_v12 (ix2 p q)) = ix1 p :=
  funext fun a => Fin.ext (by match a with | ⟨0, _⟩ => rfl)
theorem idx_rowOf' (p q : Fin 1024) : idx_main_v16 (idx_main_v17 (ix2 p q)) = ix1 p :=
  funext fun a => Fin.ext (by match a with | ⟨0, _⟩ => rfl)
theorem idx_colOf (p q : Fin 1024) : idx_main_v22 (idx_main_v23 (ix2 p q)) = ix1 q :=
  funext fun a => Fin.ext (by match a with | ⟨0, _⟩ => rfl)
theorem idx_colOf' (p q : Fin 1024) : idx_main_v27 (idx_main_v28 (ix2 p q)) = ix1 q :=
  funext fun a => Fin.ext (by match a with | ⟨0, _⟩ => rfl)
theorem idx_inRow (p k : Fin 1024) : idx_main_v15 (ix1 p) k = ix2 p k :=
  funext fun a => Fin.ext (by match a with | ⟨0, _⟩ => rfl | ⟨1, _⟩ => rfl)
theorem idx_inCol (q k : Fin 1024) : idx_main_v26 (ix1 q) k = ix2 k q :=
  funext fun a => Fin.ext (by match a with | ⟨0, _⟩ => rfl | ⟨1, _⟩ => rfl)

/-! ## The row softmax -/

/-- The reference's row maximum is the fold of `max` from `⊥` over the row. -/
theorem rowMax_eq (p : Fin 1024) : val_main_v10 (F := Ideal) x0 x1 (ix1 p) = rowMax (val_main_v7 (F := Ideal) x0 x1) p := by
  rw [val_main_v10_apply, val_main_v9_apply, val_main_cst_1_apply]
  unfold val_main_v8
  generalize val_main_v7 (F := Ideal) x0 x1 = s
  rw [hostLastMax_apply s _ reducesTo_S1024x1024_S1024_d1 (by decide) h_S_ p, val_main_cst_0_apply]
  simp only [Ideal.maximumf_def, Ideal.ofBits_def, negInf_eq, max_bot_left]
  rfl

theorem rowExp_eq (p q : Fin 1024) :
    val_main_v14 (F := Ideal) x0 x1 (ix2 p q) = rowExp (val_main_v7 (F := Ideal) x0 x1) p q := by
  rw [val_main_v14_apply, val_main_v13_apply, val_main_v12_apply, val_main_v11_apply, idx_rowOf, rowMax_eq]
  rfl

theorem rowProb_eq (p q : Fin 1024) :
    val_main_v18 (F := Ideal) x0 x1 (ix2 p q) = rowProb (val_main_v7 (F := Ideal) x0 x1) p q := by
  rw [val_main_v18_apply, val_main_v17_apply, val_main_v16_apply, idx_rowOf', val_main_v15_apply, val_main_cst_2_apply,
    rowExp_eq]
  simp only [idx_inRow, rowExp_eq, Ideal.ofBits_def, zero_eq, zero_add]
  rfl

/-! ## The column softmax -/

/-- The reference's column maximum is the fold of `max` from `⊥` over the column. -/
theorem colMax_eq (q : Fin 1024) : val_main_v21 (F := Ideal) x0 x1 (ix1 q) = colMax (val_main_v7 (F := Ideal) x0 x1) q := by
  rw [val_main_v21_apply, val_main_v20_apply, val_main_cst_4_apply]
  unfold val_main_v19
  generalize val_main_v7 (F := Ideal) x0 x1 = s
  rw [hostFirstMax_apply s _ reducesTo_S1024x1024_S1024_d0 (by decide) h_S_ q, val_main_cst_3_apply]
  simp only [Ideal.maximumf_def, Ideal.ofBits_def, negInf_eq, max_bot_left]
  rfl

theorem colExp_eq (p q : Fin 1024) :
    val_main_v25 (F := Ideal) x0 x1 (ix2 p q) = colExp (val_main_v7 (F := Ideal) x0 x1) p q := by
  rw [val_main_v25_apply, val_main_v24_apply, val_main_v23_apply, val_main_v22_apply, idx_colOf, colMax_eq]
  rfl

theorem colProb_eq (p q : Fin 1024) :
    val_main_v29 (F := Ideal) x0 x1 (ix2 p q) = colProb (val_main_v7 (F := Ideal) x0 x1) p q := by
  rw [val_main_v29_apply, val_main_v28_apply, val_main_v27_apply, idx_colOf', val_main_v26_apply, val_main_cst_5_apply,
    colExp_eq]
  simp only [idx_inCol, colExp_eq, Ideal.ofBits_def, zero_eq, zero_add]
  rfl

/-! ## The weights and the mean -/

theorem weight_eq (p q : Fin 1024) :
    val_main_v32 (F := Ideal) x0 x1 (ix2 p q) = weight (val_main_v7 (F := Ideal) x0 x1) p q := by
  rw [val_main_v32_apply, val_main_v30_apply, val_main_v31_apply, rowProb_eq, colProb_eq]
  rfl

/-- The reference's result is the weighted mean of its similarity matrix. -/
theorem mean_eq (i : S_.Idx) :
    val_main_v36 (F := Ideal) x0 x1 i = wmean (val_main_v7 (F := Ideal) x0 x1) := by
  rw [val_main_v36_apply, val_main_v34_apply, val_main_v35_apply, val_main_cst_6_apply, val_main_cst_7_apply,
    sum_idx2, sum_idx2]
  simp only [val_main_v33_apply, weight_eq, Ideal.ofBits_def, zero_eq, zero_add, Ideal.mulf_def]
  rfl

end Cert.ReferenceIdeal.RefMean

end
-- ==== Proof.DistBody.lean ====
/-
  What the first kernel stores, read at an index: the negated L1 distances between the rows of its two blocks.

  At a grid point the body holds 128 rows of each cloud, all 256 columns. It takes the columns in two halves. For a half
  `a` (rows of the first cloud) and `b` (rows of the second), both 128 × 128, it forms the array of all differences
  `a p k - b q k` by viewing `a` as [128, 1, 128] repeated along the middle axis and `b` as [1, 128, 128] repeated along the
  first, takes absolute values and sums over the last axis. The two halves' sums are added to a zero matrix one after
  the other and the total is subtracted from zero. Read at `(p, q)` the stored block is therefore
      0 - ((0 + ∑ k < 128, |a p k - b q k|) + ∑ k < 128, |a' p k - b' q k|) ,
  which on the extended reals is `-(∑ k, |a p k - b q k| + ∑ k, |a' p k - b' q k|)`: zero is neutral for the sum, and
  subtracting from zero is negation.
-/
import proofs.«104203_j78769700208930_1_alg».proof.Proof.Gen.KernelIdeal.Skeleton
import proofs.«104203_j78769700208930_1_alg».proof.Proof.Align
import proofs.«104203_j78769700208930_1_alg».proof.Proof.LibAxisFolds
import Idealize.ShloMosaic.Lib.ValueLayout

noncomputable section

namespace Cert.KernelIdeal.DistBody

open Idealize.ShloMosaic Idealize.ShloMosaic.ValueIdx Cert.KernelIdeal Cert.KernelIdeal.Gen Cert.Align
open Cert.Lib.AxisFolds

/-- The sum over the last axis, as the body takes it: at `(p, q)` the sum over `k` of the entries `(p, q, k)`. -/
theorem lastSum_read (v : FVec Ideal S128x128x128 .f32) (hφ : FTy.f32 = FTy.f32 ∨ FTy.f32 = FTy.bf16)
    (hacc : (0x00000000#32 : BitVec 32) = 0x00000000#32) (p q : Fin 128) :
    multiReduction .add [2] S128x128 v 0x00000000#32 reduces_S128x128x128_S128x128 hφ hacc (ix2 p q)
      = ∑ k : Fin 128, v (ix3 p q k) :=
  lastSum3_apply v 0x00000000#32 reduces_S128x128x128_S128x128 hφ hacc p q

/-- The first cloud's rows spread over the pairs: entry `(p, q, k)` is entry `(p, k)` of the block. -/
theorem left_read (a : FVec Ideal S128x128 .f32) (p q k : Fin 128) :
    broadcastTo S128x128x128 (shapeCast S128x1x128 a shapeCasts_S128x128_S128x1x128) broadcasts_S128x1x128_S128x128x128 (ix3 p q k)
      = a (ix2 p k) :=
  (broadcastTo_a1c_abc_apply _ broadcasts_S128x1x128_S128x128x128 p q k).trans
    (shapeCast_ab_a1b_apply a shapeCasts_S128x128_S128x1x128 p 0 k)

/-- The second cloud's rows spread over the pairs: entry `(p, q, k)` is entry `(q, k)` of the block. -/
theorem right_read (b : FVec Ideal S128x128 .f32) (p q k : Fin 128) :
    broadcastTo S128x128x128 (shapeCast S1x128x128 b shapeCasts_S128x128_S1x128x128) broadcasts_S1x128x128_S128x128x128 (ix3 p q k)
      = b (ix2 q k) :=
  (broadcastTo_1bc_abc_apply _ broadcasts_S1x128x128_S128x128x128 p q k).trans
    (shapeCast_ab_1ab_apply b shapeCasts_S128x128_S1x128x128 0 q k)

/-- The absolute value of a vector reads entry by entry, as the larger of the entry and its negation. -/
theorem absf_read {s : Shape} (v : FVec Ideal s .f32) (i : s.Idx) : absf v i = max (v i) (-(v i)) := rfl

/-- The zero a scalar constant denotes. -/
theorem scalar_zero : (Scalar.ofBits .f32 0x00000000#32 : Ideal .f32) = (0 : EReal) := zero_eq

/-- The block the body stores: at `(p, q)`, minus the two halves' sums of absolute differences. -/
theorem stored_eq (a b a' b' : FVec Ideal S128x128 .f32) (p q : Fin 128) :
    k0_pay1 (F := Ideal) a b a' b' (ix2 p q)
      = -((∑ k : Fin 128, max (a (ix2 p k) - b (ix2 q k)) (-(a (ix2 p k) - b (ix2 q k))))
          + ∑ k : Fin 128, max (a' (ix2 p k) - b' (ix2 q k)) (-(a' (ix2 p k) - b' (ix2 q k)))) := by
  unfold k0_pay1
  -- first the operations named one by one are substituted and the entrywise ones read at `(p, q)` …
  simp only [subf_apply, addf_apply, broadcast_apply, scalar_zero]
  -- … then each half's sum over the last axis, and under it the spread blocks
  rw [lastSum_read, lastSum_read]
  simp only [absf_read, subf_apply, left_read, right_read]
  rw [zero_add, sub_eq_add_neg, zero_add]

end Cert.KernelIdeal.DistBody

end
-- ==== Proof.DistArray.lean ====
/-
  The first region's result array: the similarity matrix of the two clouds the region found.

  The grid is 8 × 8; point `t` is the pair `(t / 8, t % 8)`. There the first cloud's window holds rows
  `(t / 8) · 128 + p`, the second's rows `(t % 8) · 128 + q` (all 256 columns of each), and the output window is block
  `(t / 8, t % 8)` of the 1024 × 1024 result, whose entry `(p, q)` sits at `((t / 8) · 128 + p, (t % 8) · 128 + q)`. The body
  reads each input block in two halves of 128 columns, at column offsets 0 and 128, and a sum over 256 columns is the sum
  over the first 128 plus the sum over the last 128. So what point `t` writes back is block `t` of the one matrix
  `distArr x y`, and the 64 blocks tile the result: entry `(P, Q)` lies in the block of point `(P / 128) · 8 + Q / 128`.
-/
import proofs.«104203_j78769700208930_1_alg».proof.Proof.Gen.KernelIdeal.Frame
import proofs.«104203_j78769700208930_1_alg».proof.Proof.DistBody
import Idealize.ShloMosaic.Lib.Pipeline.Value

set_option maxRecDepth 16384

noncomputable section

namespace Cert.KernelIdeal.DistArray

open Idealize.ShloMosaic Idealize.ShloMosaic.TcCoe Idealize.ShloMosaic.ValueIdx Idealize.SL.Sem
open Cert.KernelIdeal Cert.KernelIdeal.Gen Cert.Align

variable (V : (c : Dev nD) → (b : Ref sig .tc) → Buf (Elt Ideal) ((c : Thread nD τ).loc b))

theorem offsets_zero : (![0, 0] : Fin 2 → Nat) = fun _ => 0 := funext fun a => by fin_cases a <;> rfl

/-- A sum over 256 columns is the sum over the first 128 plus the sum over the last 128. -/
theorem sum_halves (f : Fin 256 → EReal) :
    ∑ d : Fin 256, f d = (∑ k : Fin 128, f ⟨k.val, by omega⟩) + ∑ k : Fin 128, f ⟨128 + k.val, by omega⟩ :=
  Fin.sum_univ_add (a := 128) (b := 128) f

/-- The first half of a block's columns, as the body loads it. -/
theorem lo_read (x : Vec Ideal S128x256 .f32) (p k : Fin 128) : View.ld x r0_0 (ix2 p k) = x (ix2 p ⟨k.val, by omega⟩) :=
  congrArg x (funext fun a => Fin.ext (by
    match a with
    | ⟨0, _⟩ => show 0 + 1 * p.val = p.val; omega
    | ⟨1, _⟩ => show 0 + 1 * k.val = k.val; omega))

/-- The second half, from column 128 on. -/
theorem hi_read (x : Vec Ideal S128x256 .f32) (p k : Fin 128) : View.ld x r0_1 (ix2 p k) = x (ix2 p ⟨128 + k.val, by omega⟩) :=
  congrArg x (funext fun a => Fin.ext (by
    match a with
    | ⟨0, _⟩ => show 0 + 1 * p.val = p.val; omega
    | ⟨1, _⟩ => show 128 + 1 * k.val = 128 + k.val; omega))

/-- What the body leaves in the output's buffer at `(p, q)`, for any two loaded blocks whose rows `p` and `q` are rows `P`
    of a cloud `X` and `Q` of a cloud `Y`: the negated L1 distance between those two points. -/
theorem left_eq (x0 x1 : Vec Ideal S128x256 .f32) (X Y : Cloud) (P Q : Fin 1024) (p q : Fin 128)
    (h0 : ∀ d : Fin 256, x0 (ix2 p d) = X (ix2 P d)) (h1 : ∀ d : Fin 256, x1 (ix2 q d) = Y (ix2 Q d)) :
    out0_2 x0 x1 (ix2 p q) = dist X Y P Q := by
  unfold out0_2
  rw [View.canon_unit_zero offsets_zero]
  refine (DistBody.stored_eq _ _ _ _ p q).trans ?_
  unfold Cert.Align.dist
  rw [sum_halves]
  refine congrArg Neg.neg (congrArg₂ (· + ·) (Finset.sum_congr rfl fun k _ => ?_) (Finset.sum_congr rfl fun k _ => ?_))
  · rw [lo_read x0 p k, lo_read x1 q k, h0, h1]
  · rw [hi_read x0 p k, hi_read x1 q k, h0, h1]

/-- The printed index maps over the grid: point `t` is the pair `(t / 8, t % 8)`. -/
theorem index_facts : ∀ t : Fin cfg0.N, win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = t.val % 8 :=
  (by decide +kernel : ∀ t : Fin grid0.N, _)

/-- The row of the first cloud that row `p` of point `t`'s block is. -/
def rowOf (t : Fin cfg0.N) (p : Fin 128) : Fin 1024 :=
  ⟨t.val / 8 * 128 + p.val, by have ht : t.val < 64 := t.isLt; omega⟩
/-- The row of the second cloud that row `q` of point `t`'s block is. -/
def colOf (t : Fin cfg0.N) (q : Fin 128) : Fin 1024 :=
  ⟨t.val % 8 * 128 + q.val, by omega⟩

/-- The first cloud's block at point `t`, read at `(p, d)`. -/
theorem first_read (c : Dev nD) (t : Fin cfg0.N) (p : Fin 128) (d : Fin 256) :
    iblk0 V c 0 t (ix2 p d) = V c main_arg0 (ix2 (rowOf t p) d) := by
  obtain ⟨e0, e1, -, -, -, -⟩ := index_facts t
  show V c main_arg0 (((cfg0.win 0).blk t).view.emb (ix2 p d)) = V c main_arg0 (ix2 (rowOf t p) d)
  refine congrArg (V c main_arg0) (funext fun a => Fin.ext ?_)
  match a with
  | ⟨0, _⟩ => show win0_0.index t (0 : Fin 2) * 128 + 1 * p.val = t.val / 8 * 128 + p.val; omega
  | ⟨1, _⟩ => show win0_0.index t (1 : Fin 2) * 256 + 1 * d.val = d.val; omega

/-- The second cloud's block at point `t`, read at `(q, d)`. -/
theorem second_read (c : Dev nD) (t : Fin cfg0.N) (q : Fin 128) (d : Fin 256) :
    iblk0 V c 1 t (ix2 q d) = V c main_arg1 (ix2 (colOf t q) d) := by
  obtain ⟨-, -, e2, e3, -, -⟩ := index_facts t
  show V c main_arg1 (((cfg0.win 1).blk t).view.emb (ix2 q d)) = V c main_arg1 (ix2 (colOf t q) d)
  refine congrArg (V c main_arg1) (funext fun a => Fin.ext ?_)
  match a with
  | ⟨0, _⟩ => show win0_1.index t (0 : Fin 2) * 128 + 1 * q.val = t.val % 8 * 128 + q.val; omega
  | ⟨1, _⟩ => show win0_1.index t (1 : Fin 2) * 256 + 1 * d.val = d.val; omega

/-- Where entry `(p, q)` of point `t`'s output block sits in the result. -/
theorem out_emb (t : Fin cfg0.N) (p q : Fin 128) :
    ((cfg0.win 2).blk t).view.emb (ix2 p q) = ix2 (rowOf t p) (colOf t q) := by
  obtain ⟨-, -, -, -, e4, e5⟩ := index_facts t
  refine funext fun a => Fin.ext ?_
  match a with
  | ⟨0, _⟩ => show win0_2.index t (0 : Fin 2) * 128 + 1 * p.val = t.val / 8 * 128 + p.val; omega
  | ⟨1, _⟩ => show win0_2.index t (1 : Fin 2) * 128 + 1 * q.val = t.val % 8 * 128 + q.val; omega

/-- What point `t` writes back is block `t` of the similarity matrix of the two clouds the region found. -/
theorem flushed_eq (c : Dev nD) (t : Fin cfg0.N) :
    (dat0 V c).flushed 2 t = ((cfg0.win 2).blk t).view.read (Elt Ideal) (distArr (V c main_arg0) (V c main_arg1)) := by
  show (cfg0.win 2).cut (grid0.coords t) ((dat0 V c).after 2 t) = _
  rw [after0_2]
  funext j
  obtain ⟨p, q, rfl⟩ : ∃ (p q : Fin 128), j = ix2 p q := ⟨j 0, j 1, eq_ix2 j⟩
  show out0_2 (iblk0 V c 0 t) (iblk0 V c 1 t) (ix2 p q)
    = distArr (V c main_arg0) (V c main_arg1) (((cfg0.win 2).blk t).view.emb (ix2 p q))
  rw [out_emb t p q, distArr_ix2]
  exact left_eq _ _ _ _ _ _ p q (first_read V c t p) (second_read V c t q)

/-- An index of the result is in point `t`'s block iff each coordinate is in the block's range on its axis. -/
theorem mem_block (t : Fin cfg0.N) (i : S1024x1024.Idx) :
    i ∈ ((cfg0.win 2).blk t).view.set ↔ ∀ a : Fin 2, win0_2.index t a * S128x128.size a ≤ (i a).val ∧ (i a).val < win0_2.index t a * S128x128.size a + S128x128.size a := by
  show i ∈ ((View.whole main_v0).slice (win0_2.rect t)).set ↔ _
  rw [View.set_slice_whole, Rect.mem_set_unit]
  exact Iff.rfl

/-- The 64 blocks tile the result. -/
theorem cover (i : S1024x1024.Idx) : ∃ t : Fin cfg0.N, (cfg0.win 2).flush t = true ∧ i ∈ ((cfg0.win 2).blk t).view.set := by
  have h0 : (i 0).val < 1024 := (i 0).isLt
  have h1 : (i 1).val < 1024 := (i 1).isLt
  let t : Fin cfg0.N := ⟨(i 0).val / 128 * 8 + (i 1).val / 128, by show _ < 64; omega⟩
  have ht : t.val = (i 0).val / 128 * 8 + (i 1).val / 128 := rfl
  obtain ⟨-, -, -, -, e4, e5⟩ := index_facts t
  refine ⟨t, flush0_2 t, ?_⟩
  rw [mem_block]
  intro a
  match a with
  | ⟨0, _⟩ => show win0_2.index t (0 : Fin 2) * 128 ≤ (i 0).val ∧ (i 0).val < win0_2.index t (0 : Fin 2) * 128 + 128; omega
  | ⟨1, _⟩ => show win0_2.index t (1 : Fin 2) * 128 ≤ (i 1).val ∧ (i 1).val < win0_2.index t (1 : Fin 2) * 128 + 128; omega

/-- The result array after the region: the similarity matrix of the two clouds the region found. -/
theorem final (c : Dev nD) : (dat0 V c).arrAt 2 cfg0.N = distArr (V c main_arg0) (V c main_arg1) :=
  (dat0 V c).arrAt_eq_of_cover 2 _ (fun t _ => flushed_eq V c t) cover

end Cert.KernelIdeal.DistArray

end
-- ==== Proof.LibKeepdims.lean ====
/-
  Column layouts and a lane sum read at an index.

  A sum over the last axis that keeps its dimension leaves a column: the [a] vector of row sums viewed as [a, 1],
  then spread along the rows of an [a, b] array. Read at `(p, c)` that array holds the sum of row `p`, whatever the
  column `c`. The lemmas here say so one layout step at a time, for every extent:
  • `shapeCast_a_a1_apply`: a vector [a] viewed as a column [a, 1] reads, at `(p, 0)`, the vector at `p`;
  • `broadcastTo_a1_ab_apply`: a column [a, 1] spread to [a, b] reads, at `(p, c)`, the column at `(p, 0)`;
  • `laneSum_apply`: over the extended reals, the sum of an [a, b] array along its last axis reads, at `p`, the
    finite sum over `k < b` of the array at `(p, k)`.
  Together with the library's row forms ([a] viewed as [1, a], a row [1, b] spread to [a, b]) these read every
  `sum(axis = -1, keepdims = True)` a kernel body broadcasts back over its block.
-/
import Idealize.ShloMosaic.Lib.Pipeline.Value
import Idealize.ShloMosaic.Lib.ValueIdx
import Idealize.ShloMosaic.PureOps.Ideal.Laws

noncomputable section

namespace Cert.Lib.Keepdims

open Idealize.ShloMosaic Idealize.ShloMosaic.ValueIdx

variable {α : Type}

/-- A vector [a] viewed as a column [a, 1]: entry `(p, u)` of the column is entry `p` of the vector (row-major
    position `p · 1 + 0 = p`). -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column [a, 1] spread along the rows of an [a, b] array: entry `(p, c)` is the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Over the extended reals the sum of an [a, b] array along its last axis, read at row `p`, is `∑ k < b` of the
    array at `(p, k)`: the reduced index with the summed coordinate put back is `(p, k)`. -/
theorem laneSum_apply {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ v acc h hφ hacc (ix1 p) = ∑ k : Fin b, v (ix2 p k) :=
  (Ideal.multiReduction_add_single v acc h hφ hacc (ix1 p)).trans
    (Finset.sum_congr rfl fun k _ => congrArg v (funext fun d => Fin.ext (by
      match d with
      | ⟨0, _⟩ => rfl
      | ⟨1, _⟩ => rfl)))

end Cert.Lib.Keepdims

end
-- ==== Proof.MeanBody.lean ====
/-
  What the second kernel stores, read at its one index: the weighted mean of the similarity matrix it loaded.

  The body loads the whole 1024 × 1024 matrix `s` and works on it as one vector. A line's maximum (or sum) is taken by a
  reduction along one axis, which leaves a vector of length 1024; the vector is viewed as a column [1024, 1] (for rows) or as
  a row [1, 1024] (for columns) and repeated over the matrix, so that at entry `(p, q)` it reads the value of row `p`
  (of column `q`). The grand totals are taken in two steps, along the rows and then down the resulting column. The
  intermediate vectors are named here as the body forms them (`rowMaxV`, `rowExpV`, `rowProbV`, their column twins,
  `weightV`, `totalV`), each is read at an index given by coordinates, and the stored 1 × 1 block is `Align.wmean s`: the
  row sums of row sums are the double sums of the specification as they stand, and minus infinity's word is `⊥`.
-/
import proofs.«104203_j78769700208930_1_alg».proof.Proof.Gen.KernelIdeal.Skeleton
import proofs.«104203_j78769700208930_1_alg».proof.Proof.Align
import proofs.«104203_j78769700208930_1_alg».proof.Proof.LibKeepdims
import proofs.«104203_j78769700208930_1_alg».proof.Proof.LibAxisFolds
import Idealize.ShloMosaic.Lib.ValueLayout

noncomputable section

namespace Cert.KernelIdeal.MeanBody

open Idealize.ShloMosaic Idealize.ShloMosaic.ValueIdx Cert.KernelIdeal Cert.KernelIdeal.Gen Cert.Align
open Cert.Lib.Keepdims Cert.Lib.AxisFolds

/-! ## Spreading a value per line back over the matrix -/

/-- One value per row, repeated along the row. -/
def perRow (r : FVec Ideal S1024 .f32) : FVec Ideal S1024x1024 .f32 :=
  broadcastTo S1024x1024 (shapeCast S1024x1 r shapeCasts_S1024_S1024x1) broadcasts_S1024x1_S1024x1024
/-- One value per column, repeated down the column. -/
def perCol (r : FVec Ideal S1024 .f32) : FVec Ideal S1024x1024 .f32 :=
  broadcastTo S1024x1024 (shapeCast S1x1024 r shapeCasts_S1024_S1x1024) broadcasts_S1x1024_S1024x1024

/-- Entry `(p, q)` of a per-row spread is the value of row `p`. -/
theorem perRow_read (r : FVec Ideal S1024 .f32) (p q : Fin 1024) : perRow r (ix2 p q) = r (ix1 p) :=
  (broadcastTo_a1_ab_apply _ broadcasts_S1024x1_S1024x1024 p q).trans (shapeCast_a_a1_apply r shapeCasts_S1024_S1024x1 p 0)
/-- Entry `(p, q)` of a per-column spread is the value of column `q`. -/
theorem perCol_read (r : FVec Ideal S1024 .f32) (p q : Fin 1024) : perCol r (ix2 p q) = r (ix1 q) :=
  (broadcastTo_1b_ab_apply _ broadcasts_S1x1024_S1024x1024 p q).trans (shapeCast_a_1a_apply r shapeCasts_S1024_S1x1024 0 q)

/-! ## Sums along one axis, and the grand total -/

/-- The sums of the rows. -/
def rowSumV (v : FVec Ideal S1024x1024 .f32) : FVec Ideal S1024 .f32 :=
  multiReduction .add [1] S1024 v 0x00000000#32 reduces_S1024x1024_S1024 (.inl rfl) rfl
/-- The sums of the columns. -/
def colSumV (v : FVec Ideal S1024x1024 .f32) : FVec Ideal S1024 .f32 :=
  multiReduction .add [0] S1024 v 0x00000000#32 reduces_S1024x1024_S1024_2 (.inl rfl) rfl
/-- The total of a matrix: the row sums set as a column, summed down it, stored as a 1 × 1 block. -/
def totalV (v : FVec Ideal S1024x1024 .f32) : FVec Ideal S1x1 .f32 :=
  shapeCast S1x1 (multiReduction .add [0] S1 (shapeCast S1024x1 (rowSumV v) shapeCasts_S1024_S1024x1) 0x00000000#32
    reduces_S1024x1_S1 (.inl rfl) rfl) shapeCasts_S1_S1x1

/-- Row `p`'s sum, for a matrix known entry by entry. -/
theorem rowSumV_read (v : FVec Ideal S1024x1024 .f32) (f : Fin 1024 → Fin 1024 → EReal)
    (hv : ∀ p q, v (ix2 p q) = f p q) (p : Fin 1024) : rowSumV v (ix1 p) = ∑ k : Fin 1024, f p k :=
  (laneSum_apply v 0x00000000#32 reduces_S1024x1024_S1024 (.inl rfl) rfl p).trans (Finset.sum_congr rfl fun k _ => hv p k)
/-- Column `q`'s sum, for a matrix known entry by entry. -/
theorem colSumV_read (v : FVec Ideal S1024x1024 .f32) (f : Fin 1024 → Fin 1024 → EReal)
    (hv : ∀ p q, v (ix2 p q) = f p q) (q : Fin 1024) : colSumV v (ix1 q) = ∑ k : Fin 1024, f k q :=
  (firstSum_apply v 0x00000000#32 reduces_S1024x1024_S1024_2 (.inl rfl) rfl q).trans (Finset.sum_congr rfl fun k _ => hv k q)
/-- The total, for a matrix known entry by entry: the double sum over rows and columns. -/
theorem totalV_read (v : FVec Ideal S1024x1024 .f32) (f : Fin 1024 → Fin 1024 → EReal)
    (hv : ∀ p q, v (ix2 p q) = f p q) : totalV v (ix2 (0 : Fin 1) (0 : Fin 1)) = ∑ p : Fin 1024, ∑ q : Fin 1024, f p q :=
  (shapeCast_a_1a_apply _ shapeCasts_S1_S1x1 0 0).trans
    ((firstSum_apply _ 0x00000000#32 reduces_S1024x1_S1 (.inl rfl) rfl (0 : Fin 1)).trans
      (Finset.sum_congr rfl fun k _ => (shapeCast_a_a1_apply (rowSumV v) shapeCasts_S1024_S1024x1 k 0).trans (rowSumV_read v f hv k)))

/-! ## The row softmax -/

/-- The maxima of the rows. -/
def rowMaxV (s : FVec Ideal S1024x1024 .f32) : FVec Ideal S1024 .f32 :=
  multiReduction .maximumf [1] S1024 s 0xFF800000#32 reduces_S1024x1024_S1024 (.inl rfl) rfl
theorem rowMaxV_read (s : FVec Ideal S1024x1024 .f32) (p : Fin 1024) : rowMaxV s (ix1 p) = rowMax s p :=
  (lastMax_apply s 0xFF800000#32 reduces_S1024x1024_S1024 (.inl rfl) rfl p).trans (by rw [negInf_eq]; rfl)

def rowExpV (s : FVec Ideal S1024x1024 .f32) : FVec Ideal S1024x1024 .f32 := exp (subf s (perRow (rowMaxV s)))
theorem rowExpV_read (s : FVec Ideal S1024x1024 .f32) (p q : Fin 1024) : rowExpV s (ix2 p q) = rowExp s p q := by
  show Ideal.exp (s (ix2 p q) - perRow (rowMaxV s) (ix2 p q)) = _
  rw [perRow_read, rowMaxV_read]; rfl

def rowProbV (s : FVec Ideal S1024x1024 .f32) : FVec Ideal S1024x1024 .f32 := divf (rowExpV s) (perRow (rowSumV (rowExpV s)))
theorem rowProbV_read (s : FVec Ideal S1024x1024 .f32) (p q : Fin 1024) : rowProbV s (ix2 p q) = rowProb s p q := by
  show Ideal.div (rowExpV s (ix2 p q)) (perRow (rowSumV (rowExpV s)) (ix2 p q)) = _
  rw [perRow_read, rowSumV_read _ _ (rowExpV_read s), rowExpV_read]; rfl

/-! ## The column softmax -/

/-- The maxima of the columns. -/
def colMaxV (s : FVec Ideal S1024x1024 .f32) : FVec Ideal S1024 .f32 :=
  multiReduction .maximumf [0] S1024 s 0xFF800000#32 reduces_S1024x1024_S1024_2 (.inl rfl) rfl
theorem colMaxV_read (s : FVec Ideal S1024x1024 .f32) (q : Fin 1024) : colMaxV s (ix1 q) = colMax s q :=
  (firstMax_apply s 0xFF800000#32 reduces_S1024x1024_S1024_2 (.inl rfl) rfl q).trans (by rw [negInf_eq]; rfl)

def colExpV (s : FVec Ideal S1024x1024 .f32) : FVec Ideal S1024x1024 .f32 := exp (subf s (perCol (colMaxV s)))
theorem colExpV_read (s : FVec Ideal S1024x1024 .f32) (p q : Fin 1024) : colExpV s (ix2 p q) = colExp s p q := by
  show Ideal.exp (s (ix2 p q) - perCol (colMaxV s) (ix2 p q)) = _
  rw [perCol_read, colMaxV_read]; rfl

def colProbV (s : FVec Ideal S1024x1024 .f32) : FVec Ideal S1024x1024 .f32 := divf (colExpV s) (perCol (colSumV (colExpV s)))
theorem colProbV_read (s : FVec Ideal S1024x1024 .f32) (p q : Fin 1024) : colProbV s (ix2 p q) = colProb s p q := by
  show Ideal.div (colExpV s (ix2 p q)) (perCol (colSumV (colExpV s)) (ix2 p q)) = _
  rw [perCol_read, colSumV_read _ _ (colExpV_read s), colExpV_read]; rfl

/-! ## The weights and the mean -/

def weightV (s : FVec Ideal S1024x1024 .f32) : FVec Ideal S1024x1024 .f32 :=
  subf (addf (rowProbV s) (colProbV s)) (mulf (rowProbV s) (colProbV s))
theorem weightV_read (s : FVec Ideal S1024x1024 .f32) (p q : Fin 1024) : weightV s (ix2 p q) = weight s p q := by
  show rowProbV s (ix2 p q) + colProbV s (ix2 p q) - rowProbV s (ix2 p q) * colProbV s (ix2 p q) = _
  rw [rowProbV_read, colProbV_read]; rfl

theorem weighted_read (s : FVec Ideal S1024x1024 .f32) (p q : Fin 1024) :
    mulf (weightV s) s (ix2 p q) = weight s p q * s (ix2 p q) := by
  show weightV s (ix2 p q) * s (ix2 p q) = _
  rw [weightV_read]

/-- The body's arithmetic, with its intermediate vectors named. -/
theorem payload_eq (s : FVec Ideal S1024x1024 .f32) :
    k1_pay1 (F := Ideal) s
      = divf (totalV (mulf (weightV (shapeCast S1024x1024 s shapeCasts_S1024x1024_S1024x1024)) (shapeCast S1024x1024 s shapeCasts_S1024x1024_S1024x1024)))
          (totalV (weightV (shapeCast S1024x1024 s shapeCasts_S1024x1024_S1024x1024))) := rfl

/-- The block the body stores is the weighted mean of the matrix it loaded. -/
theorem stored_eq (s : FVec Ideal S1024x1024 .f32) :
    k1_pay1 (F := Ideal) s (ix2 (0 : Fin 1) (0 : Fin 1)) = wmean s := by
  rw [payload_eq, shapeCast_self]
  show Ideal.div (totalV (mulf (weightV s) s) (ix2 0 0)) (totalV (weightV s) (ix2 0 0)) = _
  rw [totalV_read _ _ (weighted_read s), totalV_read _ _ (weightV_read s)]
  rfl

end Cert.KernelIdeal.MeanBody

end
-- ==== Proof.MeanArray.lean ====
/-
  The second region's result array: one entry, the weighted mean of the matrix the region found.

  The region has a single grid point. Its input window is the whole 1024 × 1024 similarity matrix (block index `(0, 0)`,
  block = array), its output window the whole 1 × 1 result. So the block the body loads is the array as the region finds it,
  what the point writes back is the body's stored block, and that one block covers the result array.
-/
import proofs.«104203_j78769700208930_1_alg».proof.Proof.Gen.KernelIdeal.Frame
import proofs.«104203_j78769700208930_1_alg».proof.Proof.MeanBody
import Idealize.ShloMosaic.Lib.Pipeline.Value

set_option maxRecDepth 16384

noncomputable section

namespace Cert.KernelIdeal.MeanArray

open Idealize.ShloMosaic Idealize.ShloMosaic.TcCoe Idealize.ShloMosaic.ValueIdx Idealize.SL.Sem
open Cert.KernelIdeal Cert.KernelIdeal.Gen Cert.Align

variable (V : (c : Dev nD) → (b : Ref sig .tc) → Buf (Elt Ideal) ((c : Thread nD τ).loc b))

theorem offsets_zero : (![0, 0] : Fin 2 → Nat) = fun _ => 0 := funext fun a => by fin_cases a <;> rfl

/-- Both windows sit at block `(0, 0)` at the region's one point. -/
theorem index_facts : ∀ t : Fin cfg1.N, win1_0.index t (0 : Fin 2) = 0 ∧ win1_0.index t (1 : Fin 2) = 0
    ∧ win1_1.index t (0 : Fin 2) = 0 ∧ win1_1.index t (1 : Fin 2) = 0 :=
  (by decide +kernel : ∀ t : Fin grid1.N, _)

/-- The block the body loads is the whole matrix, entry for entry. -/
theorem loaded_eq (c : Dev nD) (t : Fin cfg1.N) (p q : Fin 1024) :
    iblk1 V c 0 t (ix2 p q) = V c main_v0 (ix2 p q) := by
  obtain ⟨e0, e1, -, -⟩ := index_facts t
  show V c main_v0 (((cfg1.win 0).blk t).view.emb (ix2 p q)) = V c main_v0 (ix2 p q)
  refine congrArg (V c main_v0) (funext fun a => Fin.ext ?_)
  match a with
  | ⟨0, _⟩ => show win1_0.index t (0 : Fin 2) * 1024 + 1 * p.val = p.val; omega
  | ⟨1, _⟩ => show win1_0.index t (1 : Fin 2) * 1024 + 1 * q.val = q.val; omega

/-- What the body leaves in the result's buffer, for any matrix it loaded that agrees entry for entry with `S`. -/
theorem left_eq (x : Vec Ideal S1024x1024 .f32) (S : Sim) (h : ∀ p q : Fin 1024, x (ix2 p q) = S (ix2 p q)) (j : S1x1.Idx) :
    out1_1 x j = wmean S := by
  have hx : x = S := funext fun i => by rw [eq_ix2 i]; exact h _ _
  obtain ⟨u, w, rfl⟩ : ∃ (u w : Fin 1), j = ix2 u w := ⟨j 0, j 1, eq_ix2 j⟩
  obtain rfl : u = 0 := Subsingleton.elim _ _
  obtain rfl : w = 0 := Subsingleton.elim _ _
  unfold out1_1
  rw [View.canon_unit_zero offsets_zero, View.ld_unit_zero (S := S1024x1024) offsets_zero, hx]
  exact MeanBody.stored_eq S

/-- What the region's point writes back is the one-entry array holding the weighted mean. -/
theorem flushed_eq (c : Dev nD) (t : Fin cfg1.N) :
    (dat1 V c).flushed 1 t = ((cfg1.win 1).blk t).view.read (Elt Ideal) (fun _ => wmean (V c main_v0)) := by
  show (cfg1.win 1).cut (grid1.coords t) ((dat1 V c).after 1 t) = _
  rw [after1_1]
  funext j
  exact left_eq _ _ (loaded_eq V c t) j

/-- An index of the result array is in point `t`'s block iff each coordinate is in the block's range. -/
theorem mem_block (t : Fin cfg1.N) (i : S1x1.Idx) :
    i ∈ ((cfg1.win 1).blk t).view.set ↔ ∀ a : Fin 2, win1_1.index t a * S1x1.size a ≤ (i a).val ∧ (i a).val < win1_1.index t a * S1x1.size a + S1x1.size a := by
  show i ∈ ((View.whole main_v1).slice (win1_1.rect t)).set ↔ _
  rw [View.set_slice_whole, Rect.mem_set_unit]
  exact Iff.rfl

/-- The one block covers the result array. -/
theorem cover (i : S1x1.Idx) : ∃ t : Fin cfg1.N, (cfg1.win 1).flush t = true ∧ i ∈ ((cfg1.win 1).blk t).view.set := by
  refine ⟨⟨0, by decide⟩, flush1_1 _, ?_⟩
  rw [mem_block]
  obtain ⟨-, -, e2, e3⟩ := index_facts ⟨0, by decide⟩
  have h0 : (i 0).val < 1 := (i 0).isLt
  have h1 : (i 1).val < 1 := (i 1).isLt
  intro a
  match a with
  | ⟨0, _⟩ => show win1_1.index ⟨0, _⟩ (0 : Fin 2) * 1 ≤ (i 0).val ∧ (i 0).val < win1_1.index ⟨0, _⟩ (0 : Fin 2) * 1 + 1; omega
  | ⟨1, _⟩ => show win1_1.index ⟨0, _⟩ (1 : Fin 2) * 1 ≤ (i 1).val ∧ (i 1).val < win1_1.index ⟨0, _⟩ (1 : Fin 2) * 1 + 1; omega

/-- The result array after the region: its one entry is the weighted mean of the matrix the region found. -/
theorem final (c : Dev nD) : (dat1 V c).arrAt 1 cfg1.N = fun _ => wmean (V c main_v0) :=
  (dat1 V c).arrAt_eq_of_cover 1 _ (fun t _ => flushed_eq V c t) cover

end Cert.KernelIdeal.MeanArray

end
-- ==== Proof.KernelRun.lean ====
/-
  The kernel program's run, with its result named.

  @main is two regions and one host operation. Between them the buffers' contents are a fold from the launch memory: the
  first region leaves its output array (the similarity matrix) and nothing else changed; the second leaves its output
  array (the 1 × 1 weighted mean); the host operation reshapes that 1 × 1 array to the scalar result. The two arrays were
  read in `DistArray.final` and `MeanArray.final` at whatever contents their regions are entered from, so here they are
  chained: the second region is entered from the first's exit contents, whose similarity matrix is that of the launch
  memory's two clouds. Every weakly fair execution ends with every unscoped buffer at the fold's last contents
  (`ends_at_fold`, over the generated segments of @main), hence with the result at the weighted mean of the clouds'
  similarity matrix and the arguments unchanged.
-/
import proofs.«104203_j78769700208930_1_alg».proof.Proof.Gen.KernelIdeal.Frame
import proofs.«104203_j78769700208930_1_alg».proof.Proof.DistArray
import proofs.«104203_j78769700208930_1_alg».proof.Proof.MeanArray
import Idealize.ShloMosaic.Lib.StableHlo.Run

set_option maxRecDepth 16384

noncomputable section

namespace Cert.KernelIdeal.KernelRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Align

section AnyFloat

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, in a state whose unscoped buffers hold the last
    contents of the fold through @main's segments; so any post that follows from those contents holds of it. -/
theorem ends_at_fold {Q : PUnit × MemSt nD τ sig (Elt F) → Prop}
    (hQ : ∀ s : MemSt nD τ sig (Elt F),
      (∀ c : Dev nD, ∀ b ∈ Pipeline.ucRefs τ sig, s.mem (((c : Thread nD τ)).1, b) = W3 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := hQ)

end AnyFloat

/-! ## The fold's contents over the extended reals -/

variable (m : (ℓ : Loc nD τ sig) → Buf (Elt Ideal) ℓ) (ρ : Dev nD → PrngReg)

/-- The second region is entered with the similarity matrix of the launch memory's two clouds. -/
theorem entered_with (c : Dev nD) :
    V1 m ρ c main_v0 = distArr (m ((c.tc : Thread nD τ).loc main_arg0)) (m ((c.tc : Thread nD τ).loc main_arg1)) :=
  (W1_arr m ρ c 2).trans (DistArray.final (V0 m ρ) c)

/-- It leaves the 1 × 1 array holding the weighted mean of that matrix. -/
theorem left_with (c : Dev nD) :
    W2 m ρ c (Proc.devRef .tc main_v1)
      = fun _ => wmean (distArr (m ((c.tc : Thread nD τ).loc main_arg0)) (m ((c.tc : Thread nD τ).loc main_arg1))) :=
  (W2_arr m ρ c 1).trans ((MeanArray.final (V1 m ρ) c).trans (by rw [entered_with]))

/-- The scalar result is that array's one entry. -/
theorem result_eq (c : Dev nD) :
    W3 m ρ c (Proc.devRef .tc main_v2)
      = fun _ => wmean (distArr (m ((c.tc : Thread nD τ).loc main_arg0)) (m ((c.tc : Thread nD τ).loc main_arg1))) := by
  show StableHlo.after hostOps2 (W2 m ρ c) (Proc.devRef .tc main_v2) = _
  after_results
  rw [left_with]
  rfl

/-- The kernel program's run: the result ends at the weighted mean of the similarity matrix of the two argument clouds,
    the arguments unchanged. -/
theorem run : θ_run defs (onTc (τ := τ) (main (F := Ideal))) ⟨m, fun _ => 0, ρ⟩ fun r => ∀ c : Dev nD,
      r.2.mem ((c.tc : Thread nD τ).loc main_v2)
        = (fun _ => wmean (distArr (m ((c.tc : Thread nD τ).loc main_arg0)) (m ((c.tc : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  ends_at_fold m ρ fun s h c =>
    ⟨(h c _ (mem_uc main_v2 (by decide))).trans (result_eq m ρ c),
     (h c _ (mem_uc main_arg0 (by decide))).trans (W3_main_arg0 m ρ c),
     (h c _ (mem_uc main_arg1 (by decide))).trans (W3_main_arg1 m ρ c)⟩

end Cert.KernelIdeal.KernelRun

end
-- ==== Proof.lean ====
/-
  Two programs that compute a weighted mean of similarities between two clouds of 1024 points in 256 dimensions, and the
  proof that over the extended reals they compute the same number.

  The similarity of point `p` of the first cloud and point `q` of the second is their negated L1 distance. From the
  1024 × 1024 matrix of similarities two soft assignments are taken — a softmax along every row and one down every column,
  each shifted by its line's maximum —, combined into the soft union `a + b - a · b`, and the result is the mean of the
  similarities weighted by it: `Align.wmean (Align.distArr x y)` (Proof/Align.lean).

  The kernel program does this in two regions. The first works on an 8 × 8 grid of 128 × 128 blocks of the matrix; a block's
  entry is computed from 128 rows of each cloud, the 256 columns summed in two halves (Proof/DistBody.lean, and from
  blocks to the whole matrix Proof/DistArray.lean). The second loads the whole matrix and reduces it to the one number,
  taking every total in two steps, along the rows and then over the row sums (Proof/MeanBody.lean, Proof/MeanArray.lean).
  Proof/KernelRun.lean chains the two through the run. The reference does the same with whole-array operations; its stages
  are read in Proof/RefDist.lean and Proof/RefMean.lean. The two sides differ only in how sums are grouped (two halves
  against one sum over 256; rows then a column against one sum over all entries), in subtracting from zero against
  negating, in adding to zero, and in one more maximum with minus infinity — equalities of the extended reals that hold at
  the infinities as well, so the precondition that the inputs are finite is never opened.

  The three frame claims are the generated frames (the reference's is its generated run with the result dropped), and the
  idealized kernel is the kernel's own text read over the extended reals: the ideal pass rewrote nothing.
-/
import proofs.«104203_j78769700208930_1_alg».proof.Defs
import proofs.«104203_j78769700208930_1_alg».proof.Proof.Gen.Kernel
import proofs.«104203_j78769700208930_1_alg».proof.Proof.Gen.Kernel.Skeleton
import proofs.«104203_j78769700208930_1_alg».proof.Proof.Gen.Kernel.Launch
import proofs.«104203_j78769700208930_1_alg».proof.Proof.Gen.Kernel.Points
import proofs.«104203_j78769700208930_1_alg».proof.Proof.Gen.Kernel.Frame
import proofs.«104203_j78769700208930_1_alg».proof.Proof.Gen.KernelIdeal
import proofs.«104203_j78769700208930_1_alg».proof.Proof.Gen.KernelIdeal.Skeleton
import proofs.«104203_j78769700208930_1_alg».proof.Proof.Gen.KernelIdeal.Launch
import proofs.«104203_j78769700208930_1_alg».proof.Proof.Gen.KernelIdeal.Points
import proofs.«104203_j78769700208930_1_alg».proof.Proof.Gen.KernelIdeal.Frame
import proofs.«104203_j78769700208930_1_alg».proof.Proof.Gen.ReferenceIdeal
import proofs.«104203_j78769700208930_1_alg».proof.Proof.Gen.ReferenceIdeal.Run
import proofs.«104203_j78769700208930_1_alg».proof.Proof.Gen.ReferenceIdeal.Read
import proofs.«104203_j78769700208930_1_alg».proof.Proof.Gen.Pre_finite_inputs
import proofs.«104203_j78769700208930_1_alg».proof.Proof.RefDist
import proofs.«104203_j78769700208930_1_alg».proof.Proof.RefMean
import proofs.«104203_j78769700208930_1_alg».proof.Proof.KernelRun
import Idealize.ShloMosaic.Adequacy
import Idealize.ShloMosaic.Init

noncomputable section

namespace Cert.Proof

open Idealize.ShloMosaic Idealize.ShloMosaic.TcCoe Idealize.SL.Sem Cert.Align

/-- The kernel program runs and leaves its arguments as they were. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference runs and leaves its arguments as they were: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the two clouds both programs end with the weighted mean of the clouds' similarity matrix:
    the kernel's run names it, and the reference's result term is it, stage by stage. -/
theorem algebraic : Cert.algebraic_KernelIdeal_ReferenceIdeal := by
  intro m ρ m' ρ' _ hagree
  refine ⟨_, Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v36_eq]
  funext i
  rw [Cert.ReferenceIdeal.RefMean.mean_eq, Cert.ReferenceIdeal.RefDist.dist_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
